-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x625000 : Shape := ⟨2, ![2, 625000]⟩
abbrev S128x128 : Shape := ⟨2, ![128, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S100000x128 .f32) (main_arg1 : IVec S2x625000 32) (main_arg2 : FVec F S128x128 .f32) (main_arg3 : FVec F S128x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  main_v13
-- ==== Kernel.lean ====
abbrev S100000x128 : Shape := ⟨2, ![100000, 128]⟩
abbrev S2x625000 : Shape := ⟨2, ![2, 625000]⟩
abbrev S128x128 : Shape := ⟨2, ![128, 128]⟩
abbrev S1x625000 : Shape := ⟨2, ![1, 625000]⟩
abbrev S625000 : Shape := ⟨1, ![625000]⟩
abbrev S_ : Shape := ⟨0, ![]⟩
abbrev S625000x1 : Shape := ⟨2, ![625000, 1]⟩
abbrev S625000x128 : Shape := ⟨2, ![625000, 128]⟩
abbrev S100000 : Shape := ⟨1, ![100000]⟩
abbrev S100000x1 : Shape := ⟨2, ![100000, 1]⟩
abbrev S5000x128 : Shape := ⟨2, ![5000, 128]⟩
abbrev S5000x1 : Shape := ⟨2, ![5000, 1]⟩

abbrev nBuf : Space → Nat
  | .hbm => 44
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S2x625000, .i32⟩
  | .hbm, ⟨2, _⟩ => ⟨S128x128, .f32⟩
  | .hbm, ⟨3, _⟩ => ⟨S128x128, .f32⟩
  | .hbm, ⟨4, _⟩ => ⟨S1x625000, .i32⟩
  | .hbm, ⟨5, _⟩ => ⟨S625000, .i32⟩
  | .hbm, ⟨6, _⟩ => ⟨S1x625000, .i32⟩
  | .hbm, ⟨7, _⟩ => ⟨S625000, .i32⟩
  | .hbm, ⟨8, _⟩ => ⟨S100000x128, .bf16⟩
  | .hbm, ⟨9, _⟩ => ⟨S_, .i32⟩
  | .hbm, ⟨10, _⟩ => ⟨S625000, .i32⟩
  | .hbm, ⟨11, _⟩ => ⟨S625000, .i1⟩
  | .hbm, ⟨12, _⟩ => ⟨S_, .i32⟩
  | .hbm, ⟨13, _⟩ => ⟨S625000, .i32⟩
  | .hbm, ⟨14, _⟩ => ⟨S625000, .i32⟩
  | .hbm, ⟨15, _⟩ => ⟨S625000, .i32⟩
  | .hbm, ⟨16, _⟩ => ⟨S625000x1, .i32⟩
  | .hbm, ⟨17, _⟩ => ⟨S625000x128, .bf16⟩
  | .hbm, ⟨18, _⟩ => ⟨S625000x128, .f32⟩
  | .hbm, ⟨19, _⟩ => ⟨S_, .f32⟩
  | .hbm, ⟨20, _⟩ => ⟨S100000x128, .f32⟩
  | .hbm, ⟨21, _⟩ => ⟨S625000x1, .i32⟩
  | .hbm, ⟨22, _⟩ => ⟨S100000x128, .f32⟩
  | .hbm, ⟨23, _⟩ => ⟨S_, .f32⟩
  | .hbm, ⟨24, _⟩ => ⟨S625000, .f32⟩
  | .hbm, ⟨25, _⟩ => ⟨S_, .f32⟩
  | .hbm, ⟨26, _⟩ => ⟨S100000, .f32⟩
  | .hbm, ⟨27, _⟩ => ⟨S625000x1, .i32⟩
  | .hbm, ⟨28, _⟩ => ⟨S100000, .f32⟩
  | .hbm, ⟨29, _⟩ => ⟨S_, .f32⟩
  | .hbm, ⟨30, _⟩ => ⟨S100000, .f32⟩
  | .hbm, ⟨31, _⟩ => ⟨S100000, .i1⟩
  | .hbm, ⟨32, _⟩ => ⟨S_, .f32⟩
  | .hbm, ⟨33, _⟩ => ⟨S100000, .f32⟩
  | .hbm, ⟨34, _⟩ => ⟨S100000, .f32⟩
  | .hbm, ⟨35, _⟩ => ⟨S_, .f32⟩
  | .hbm, ⟨36, _⟩ => ⟨S100000, .f32⟩
  | .hbm, ⟨37, _⟩ => ⟨S100000, .f32⟩
  | .hbm, ⟨38, _⟩ => ⟨S100000x1, .f32⟩
  | .hbm, ⟨39, _⟩ => ⟨S128x128, .f32⟩
  | .hbm, ⟨40, _⟩ => ⟨S128x128, .bf16⟩
  | .hbm, ⟨41, _⟩ => ⟨S128x128, .f32⟩
  | .hbm, ⟨42, _⟩ => ⟨S128x128, .bf16⟩
  | .hbm, ⟨43, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S5000x128, .f32⟩
  | .local _ .vmem, ⟨5, _⟩ => ⟨S5000x128, .f32⟩
  | .local _ .vmem, ⟨6, _⟩ => ⟨S128x128, .bf16⟩
  | .local _ .vmem, ⟨7, _⟩ => ⟨S128x128, .bf16⟩
  | .local _ .vmem, ⟨8, _⟩ => ⟨S5000x128, .f32⟩
  | .local _ .vmem, ⟨9, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_c_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2x625000_S1x625000_0_0 : S2x625000.Slices ![0, 0] S1x625000
  shapeCasts_S1x625000_S625000 : S1x625000.ShapeCasts S625000
  slices_S2x625000_S1x625000_1_0 : S2x625000.Slices ![1, 0] S1x625000
  bitsLt_bf16_f32 : FTy.bits .bf16 < FTy.bits .f32
  bcast_S_S625000 : S_.BroadcastsInDim S625000 (![] : Fin 0 → Fin S625000.rank)
  bcast_S625000_S625000x1_0 : S625000.BroadcastsInDim S625000x1 (![0] : Fin 1 → Fin S625000x1.rank)
  bcast_S_S100000x128 : S_.BroadcastsInDim S100000x128 (![] : Fin 0 → Fin S100000x128.rank)
  bcast_S_S100000 : S_.BroadcastsInDim S100000 (![] : Fin 0 → Fin S100000.rank)
  shapeCasts_S100000_S100000x1 : S100000.ShapeCasts S100000x1
  transposes_S128x128_S128x128_1_0 : S128x128.Transposes [1, 0] S128x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  gather_S100000x128_S625000x1_S625000x128_1_0_n_n_0_1_1128_wf : GatherDims.WF S100000x128 S625000x1 S625000x128 [1] [0] [] [0] [] 1 ![1, 128]
  scatter_S100000x128_S625000x1_S625000x128_1_0_0_1_wf : ScatterDims.WF S100000x128 S625000x1 S625000x128 [1] [0] [0] 1
  scatter_S100000_S625000x1_S625000_n_0_0_1_wf : ScatterDims.WF S100000 S625000x1 S625000 [] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)

variable [Facts₀]

def gather_S100000x128_S625000x1_S625000x128_1_0_n_n_0_1_1128 : GatherDims S100000x128 S625000x1 S625000x128 where
  offsetDims := [1]
  collapsedSliceDims := [0]
  operandBatchingDims := []
  startIndicesBatchingDims := []
  startIndexMap := [0]
  indexVectorDim := 1
  sliceSizes := ![1, 128]
  wf := gather_S100000x128_S625000x1_S625000x128_1_0_n_n_0_1_1128_wf
def scatter_S100000x128_S625000x1_S625000x128_1_0_0_1 : ScatterDims S100000x128 S625000x1 S625000x128 where
  updateWindowDims := [1]
  insertedWindowDims := [0]
  scatterDimsToOperandDims := [0]
  indexVectorDim := 1
  wf := scatter_S100000x128_S625000x1_S625000x128_1_0_0_1_wf
def scatter_S100000_S625000x1_S625000_n_0_0_1 : ScatterDims S100000 S625000x1 S625000 where
  updateWindowDims := []
  insertedWindowDims := [0]
  scatterDimsToOperandDims := [0]
  indexVectorDim := 1
  wf := scatter_S100000_S625000x1_S625000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v15) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v26) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v28) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v30) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v31) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x625000 : Shape := ⟨2, ![2, 625000]⟩
abbrev S128x128 : Shape := ⟨2, ![128, 128]⟩
abbrev S1x625000 : Shape := ⟨2, ![1, 625000]⟩
abbrev S625000 : Shape := ⟨1, ![625000]⟩
abbrev S_ : Shape := ⟨0, ![]⟩
abbrev S625000x1 : Shape := ⟨2, ![625000, 1]⟩
abbrev S625000x128 : Shape := ⟨2, ![625000, 128]⟩
abbrev S100000 : Shape := ⟨1, ![100000]⟩
abbrev S100000x1 : Shape := ⟨2, ![100000, 1]⟩

abbrev nBuf : Space → Nat
  | .hbm => 41
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x625000, .i32⟩
  | .hbm, ⟨2, _⟩ => ⟨S128x128, .f32⟩
  | .hbm, ⟨3, _⟩ => ⟨S128x128, .f32⟩
  | .hbm, ⟨4, _⟩ => ⟨S1x625000, .i32⟩
  | .hbm, ⟨5, _⟩ => ⟨S625000, .i32⟩
  | .hbm, ⟨6, _⟩ => ⟨S1x625000, .i32⟩
  | .hbm, ⟨7, _⟩ => ⟨S625000, .i32⟩
  | .hbm, ⟨8, _⟩ => ⟨S_, .i32⟩
  | .hbm, ⟨9, _⟩ => ⟨S625000, .i32⟩
  | .hbm, ⟨10, _⟩ => ⟨S625000, .i1⟩
  | .hbm, ⟨11, _⟩ => ⟨S_, .i32⟩
  | .hbm, ⟨12, _⟩ => ⟨S625000, .i32⟩
  | .hbm, ⟨13, _⟩ => ⟨S625000, .i32⟩
  | .hbm, ⟨14, _⟩ => ⟨S625000, .i32⟩
  | .hbm, ⟨15, _⟩ => ⟨S625000x1, .i32⟩
  | .hbm, ⟨16, _⟩ => ⟨S625000x128, .f32⟩
  | .hbm, ⟨17, _⟩ => ⟨S_, .f32⟩
  | .hbm, ⟨18, _⟩ => ⟨S100000x128, .f32⟩
  | .hbm, ⟨19, _⟩ => ⟨S625000x1, .i32⟩
  | .hbm, ⟨20, _⟩ => ⟨S100000x128, .f32⟩
  | .hbm, ⟨21, _⟩ => ⟨S_, .f32⟩
  | .hbm, ⟨22, _⟩ => ⟨S625000, .f32⟩
  | .hbm, ⟨23, _⟩ => ⟨S_, .f32⟩
  | .hbm, ⟨24, _⟩ => ⟨S100000, .f32⟩
  | .hbm, ⟨25, _⟩ => ⟨S625000x1, .i32⟩
  | .hbm, ⟨26, _⟩ => ⟨S100000, .f32⟩
  | .hbm, ⟨27, _⟩ => ⟨S_, .f32⟩
  | .hbm, ⟨28, _⟩ => ⟨S100000, .f32⟩
  | .hbm, ⟨29, _⟩ => ⟨S100000, .i1⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S100000x1, .f32⟩
  | .hbm, ⟨34, _⟩ => ⟨S100000x128, .f32⟩
  | .hbm, ⟨35, _⟩ => ⟨S100000x128, .f32⟩
  | .hbm, ⟨36, _⟩ => ⟨S128x128, .f32⟩
  | .hbm, ⟨37, _⟩ => ⟨S100000x128, .f32⟩
  | .hbm, ⟨38, _⟩ => ⟨S128x128, .f32⟩
  | .hbm, ⟨39, _⟩ => ⟨S100000x128, .f32⟩
  | .hbm, ⟨40, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]

class Facts₀ : Prop where
  slices_S2x625000_S1x625000_0_0 : S2x625000.Slices ![0, 0] S1x625000
  shapeCasts_S1x625000_S625000 : S1x625000.ShapeCasts S625000
  slices_S2x625000_S1x625000_1_0 : S2x625000.Slices ![1, 0] S1x625000
  bcast_S_S625000 : S_.BroadcastsInDim S625000 (![] : Fin 0 → Fin S625000.rank)
  bcast_S625000_S625000x1_0 : S625000.BroadcastsInDim S625000x1 (![0] : Fin 1 → Fin S625000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  gather_S100000x128_S625000x1_S625000x128_1_0_n_n_0_1_1128_wf : GatherDims.WF S100000x128 S625000x1 S625000x128 [1] [0] [] [0] [] 1 ![1, 128]
  scatter_S100000x128_S625000x1_S625000x128_1_0_0_1_wf : ScatterDims.WF S100000x128 S625000x1 S625000x128 [1] [0] [0] 1
  scatter_S100000_S625000x1_S625000_n_0_0_1_wf : ScatterDims.WF S100000 S625000x1 S625000 [] [0] [0] 1
  dot_S100000x128_S128x128_S100000x128_1_0_0_1_n_n_wf : DotDims.WF S100000x128 S128x128 S100000x128 [1] [0] [0] [1] [] []

variable [Facts₀]

def gather_S100000x128_S625000x1_S625000x128_1_0_n_n_0_1_1128 : GatherDims S100000x128 S625000x1 S625000x128 where
  offsetDims := [1]
  collapsedSliceDims := [0]
  operandBatchingDims := []
  startIndicesBatchingDims := []
  startIndexMap := [0]
  indexVectorDim := 1
  sliceSizes := ![1, 128]
  wf := gather_S100000x128_S625000x1_S625000x128_1_0_n_n_0_1_1128_wf
def scatter_S100000x128_S625000x1_S625000x128_1_0_0_1 : ScatterDims S100000x128 S625000x1 S625000x128 where
  updateWindowDims := [1]
  insertedWindowDims := [0]
  scatterDimsToOperandDims := [0]
  indexVectorDim := 1
  wf := scatter_S100000x128_S625000x1_S625000x128_1_0_0_1_wf
def scatter_S100000_S625000x1_S625000_n_0_0_1 : ScatterDims S100000 S625000x1 S625000 where
  updateWindowDims := []
  insertedWindowDims := [0]
  scatterDimsToOperandDims := [0]
  indexVectorDim := 1
  wf := scatter_S100000_S625000x1_S625000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.LibPlainDot.lean ====
/-
  A plain matrix product read at an index.

  The dimension numbers of an [a, c] × [c, b] → [a, b] product contract the left operand's axis 1 with the right
  operand's axis 0 and have no batch axis. At result index (p, q) and contraction position k the left operand is
  read at (p, k) and the right operand at (k, q), so the sum over the contraction shape's one-axis index set is the
  sum over k : Fin c of lhs (p, k) * rhs (k, q) — in any commutative additive monoid with a product, the extended
  reals included. The statement is over variable extents; a printed record with these six lists is this one by
  reflexivity.
-/
import Idealize.ShloMosaic.Lib.ValueIdx
import Idealize.ShloMosaic.PureOps.Ideal.Laws

noncomputable section

namespace Cert.Lib.PlainDot

open Idealize.ShloMosaic Idealize.ShloMosaic.ValueIdx
open scoped BigOperators

variable {a c b : Nat}

/-- The dimension numbers of the plain product [a, c] × [c, b] → [a, b]. -/
abbrev dims (wf : DotDims.WF ⟨2, ![a, c]⟩ ⟨2, ![c, b]⟩ ⟨2, ![a, b]⟩ [1] [0] [0] [1] [] []) :
    DotDims ⟨2, ![a, c]⟩ ⟨2, ![c, b]⟩ ⟨2, ![a, b]⟩ where
  lhsContracting := [1]
  rhsContracting := [0]
  lhsNonContracting := [0]
  rhsNonContracting := [1]
  lhsBatch := []
  rhsBatch := []
  wf := wf

variable (wf : DotDims.WF ⟨2, ![a, c]⟩ ⟨2, ![c, b]⟩ ⟨2, ![a, b]⟩ [1] [0] [0] [1] [] [])

/-- The left operand's row is the result's row. -/
theorem lhs_row (i : (⟨2, ![a, b]⟩ : Shape).Idx) (k : (dims wf).contr.Idx) :
    ((dims wf).lhsIdx i k 0).val = (i 0).val := by
  unfold DotDims.lhsIdx
  rw [dif_neg (show ¬(0 : Fin 2) ∈ (dims wf).lhsBatch from List.not_mem_nil),
    dif_pos (show (0 : Fin 2) ∈ (dims wf).lhsNonContracting from List.mem_singleton.mpr rfl)]
  rfl

/-- The left operand's column is the contraction position. -/
theorem lhs_col (i : (⟨2, ![a, b]⟩ : Shape).Idx) (k : (dims wf).contr.Idx) :
    ((dims wf).lhsIdx i k 1).val = (k ⟨0, Nat.one_pos⟩).val :=
  (dims wf).lhsIdx_val_of_single rfl i k

/-- The right operand's row is the contraction position. -/
theorem rhs_row (i : (⟨2, ![a, b]⟩ : Shape).Idx) (k : (dims wf).contr.Idx) :
    ((dims wf).rhsIdx i k 0).val = (k ⟨0, Nat.one_pos⟩).val :=
  (dims wf).rhsIdx_val_of_single rfl i k

/-- The right operand's column is the result's column. -/
theorem rhs_col (i : (⟨2, ![a, b]⟩ : Shape).Idx) (k : (dims wf).contr.Idx) :
    ((dims wf).rhsIdx i k 1).val = (i 1).val := by
  unfold DotDims.rhsIdx
  rw [dif_neg (show ¬(1 : Fin 2) ∈ (dims wf).rhsBatch from List.not_mem_nil),
    dif_pos (show (1 : Fin 2) ∈ (dims wf).rhsNonContracting from List.mem_singleton.mpr rfl)]
  rfl

/-- The product's sum at (p, q): over k, the left operand at (p, k) times the right operand at (k, q). -/
theorem sum_apply {M : Type*} [AddCommMonoid M] [Mul M] (lhs : (⟨2, ![a, c]⟩ : Shape).Idx → M)
    (rhs : (⟨2, ![c, b]⟩ : Shape).Idx → M) (p : Fin a) (q : Fin b) :
    ∑ k : (dims wf).contr.Idx, lhs ((dims wf).lhsIdx (ix2 p q) k) * rhs ((dims wf).rhsIdx (ix2 p q) k)
      = ∑ k : Fin c, lhs (ix2 p k) * rhs (ix2 k q) := by
  rw [← Equiv.sum_comp (contrEquiv1 (dims wf) c rfl rfl).symm]
  refine Finset.sum_congr rfl fun k _ => ?_
  have hk := contrEquiv1_symm_val (dims wf) c rfl rfl k
  have el : (dims wf).lhsIdx (ix2 p q) ((contrEquiv1 (dims wf) c rfl rfl).symm k) = ix2 p k :=
    funext fun ax => Fin.ext (by
      match ax with
      | ⟨0, _⟩ => exact lhs_row wf _ _
      | ⟨1, _⟩ => exact (lhs_col wf _ _).trans hk)
  have er : (dims wf).rhsIdx (ix2 p q) ((contrEquiv1 (dims wf) c rfl rfl).symm k) = ix2 k q :=
    funext fun ax => Fin.ext (by
      match ax with
      | ⟨0, _⟩ => exact (rhs_row wf _ _).trans hk
      | ⟨1, _⟩ => exact rhs_col wf _ _)
  rw [el, er]

/-- A kernel's product into a zero accumulator, at the exact values, read at (p, q). -/
theorem matmul_zero_apply {φ₁ φ₂ : FTy} (prec : Option ContractPrecision) (lhs : FVec Ideal ⟨2, ![a, c]⟩ φ₁)
    (rhs : FVec Ideal ⟨2, ![c, b]⟩ φ₂) (p : Fin a) (q : Fin b) :
    matmul (dims wf) prec lhs rhs (constant ⟨2, ![a, b]⟩ .f32 0x00000000#32) (ix2 p q)
      = ∑ k : Fin c, lhs (ix2 p k) * rhs (ix2 k q) :=
  (Ideal.matmul_constant_zero_apply (dims wf) prec lhs rhs (ix2 p q)).trans (sum_apply wf lhs rhs p q)

/-- The host's product, at the exact values, read at (p, q). -/
theorem dotGeneral_apply {φ₁ φ₂ : FTy} (prec : Option ContractPrecision) (lhs : FVec Ideal ⟨2, ![a, c]⟩ φ₁)
    (rhs : FVec Ideal ⟨2, ![c, b]⟩ φ₂) (p : Fin a) (q : Fin b) :
    Host.dotGeneral (dims wf) prec lhs rhs (ix2 p q) = ∑ k : Fin c, lhs (ix2 p k) * rhs (ix2 k q) :=
  (Ideal.dotGeneral_apply (dims wf) prec _ lhs rhs (ix2 p q)).trans (sum_apply wf lhs rhs p q)

end Cert.Lib.PlainDot

end
-- ==== Proof.LibColBroadcast.lean ====
/-
  A column broadcast across the columns, read at an index.

  An `a × 1` column broadcast (as a vector broadcast) to `a × b` reads, at `(p, q)`, the column at `p`: the row
  coordinate is kept (the operand's axis 0 has the result's extent), the column coordinate is dropped (the operand's axis 1
  is a unit axis). For any element type and any extents; the companion of the row forms.
-/
import Idealize.ShloMosaic.Lib.Pipeline.Value
import Idealize.ShloMosaic.Lib.ValueIdx

noncomputable section

namespace Cert.Lib.Cols

open Idealize.ShloMosaic Idealize.ShloMosaic.ValueIdx

variable {a b : Nat}

/-- An `a × 1` column broadcast across `b` columns reads, at `(p, q)`, the column at `p`. -/
theorem bcastCol_apply {α : Type} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ =>
    show (0 : Nat) = if (1 : Nat) = 1 then 0 else q.val
    rw [if_pos rfl]

/-- A length-`a` vector reshaped to an `a × 1` column reads, at `(p, 0)`, the vector at `p`. -/
theorem col_apply {α : Type} (v : (⟨1, ![a]⟩ : Shape).Idx → α)
    (h : (⟨1, ![a]⟩ : Shape).ShapeCasts ⟨2, ![a, 1]⟩) (p : Fin a) :
    shapeCast ⟨2, ![a, 1]⟩ v h (ix2 p (0 : Fin 1)) = v (ix1 p) :=
  shapeCast_apply v h _ _ (by
    rw [Shape.rowMajor_val_two, Shape.rowMajor_val_one]
    show p.val = p.val * 1 + 0
    omega)

/-- A length-`a` vector broadcast along dimension 0 to an `a × 1` column reads, at `(p, 0)`, the vector at `p`. -/
theorem dimVec_apply {α : Type} (v : (⟨1, ![a]⟩ : Shape).Idx → α)
    (h : (⟨1, ![a]⟩ : Shape).BroadcastsInDim ⟨2, ![a, 1]⟩ ![0]) (p : Fin a) :
    broadcastInDim ⟨2, ![a, 1]⟩ ![0] h v (ix2 p (0 : Fin 1)) = v (ix1 p) :=
  broadcastInDim_apply _ h v (ix2 p (0 : Fin 1)) (ix1 p) fun ax => by
    match ax with
    | ⟨0, _⟩ =>
      show p.val = if a = 1 then 0 else p.val
      split
      · have := p.isLt; omega
      · rfl

end Cert.Lib.Cols

end
-- ==== Proof.KernelBlock.lean ====
/-
  What the kernel body stores for one block of 5000 nodes, read at a row and an output feature.

  The body loads a block of summed messages a (5000 × 128), a column r of reciprocal degrees (5000 × 1), a block of node
  features x (5000 × 128) and the two transposed weight matrices Wt, Bt (128 × 128); it scales row p of a by r p, and
  stores the sum of two matrix products, each accumulated from zero. At row p and feature q this is
      ∑ₖ a (p, k) · r (p, 0) · Wt (k, q)  +  ∑ₖ x (p, k) · Bt (k, q):
  the changes of float format are the identity on exact values, the broadcast of the column reads it at its row, and a
  matrix product into a zero accumulator is the plain sum over the contracted axis.
-/
import proofs.«181982_j77601469104330_2_alg».proof.Proof.Gen.KernelIdeal.Skeleton
import proofs.«181982_j77601469104330_2_alg».proof.Proof.LibPlainDot
import proofs.«181982_j77601469104330_2_alg».proof.Proof.LibColBroadcast
import Idealize.ShloMosaic.Lib.Pipeline.Value
import Idealize.ShloMosaic.Lib.ValueIdx

noncomputable section

namespace Cert.KernelIdeal.Block

open Cert.KernelIdeal Cert.KernelIdeal.Gen Idealize.ShloMosaic Idealize.ShloMosaic.ValueIdx
open scoped BigOperators

/-- A block's product with a 128 × 128 matrix, accumulated from zero, at (p, q): the sum over the contracted axis. -/
theorem product_apply (l : FVec Ideal S5000x128 .bf16) (r : FVec Ideal S128x128 .bf16) (p : Fin 5000) (q : Fin 128) :
    matmul dot_S5000x128_S128x128_S5000x128_1_0_0_1_n_n none l r (constant S5000x128 .f32 0x00000000#32) (ix2 p q)
      = ∑ k : Fin 128, l (ix2 p k) * r (ix2 k q) :=
  Cert.Lib.PlainDot.matmul_zero_apply dot_S5000x128_S128x128_S5000x128_1_0_0_1_n_n_wf none l r p q

/-- The scaled block at (p, k): row p's entry times row p's reciprocal. -/
theorem scaled_apply (x0 : FVec Ideal S5000x128 .f32) (x1 : FVec Ideal S5000x1 .f32) (p : Fin 5000) (k : Fin 128) :
    (truncf .bf16 (mulf (shapeCast S5000x128 x0 shapeCasts_S5000x128_S5000x128)
        (broadcastTo S5000x128 (shapeCast S5000x1 x1 shapeCasts_S5000x1_S5000x1) broadcasts_S5000x1_S5000x128)) bitsLt_bf16_f32
      : FVec Ideal S5000x128 .bf16) (ix2 p k) = x0 (ix2 p k) * x1 (ix2 p (0 : Fin 1)) := by
  rw [truncf_apply, mulf_apply, shapeCast_self, shapeCast_self]
  exact congrArg (x0 (ix2 p k) * ·) (Cert.Lib.Cols.bcastCol_apply x1 broadcasts_S5000x1_S5000x128 p k)

/-- The body's stored value at row p and feature q. -/
theorem pay_apply (x0 : FVec Ideal S5000x128 .f32) (x1 : FVec Ideal S5000x1 .f32) (x2 : FVec Ideal S5000x128 .f32)
    (x3 x4 : FVec Ideal S128x128 .bf16) (p : Fin 5000) (q : Fin 128) :
    k0_pay1 (F := Ideal) x0 x1 x2 x3 x4 (ix2 p q)
      = (∑ k : Fin 128, x0 (ix2 p k) * x1 (ix2 p (0 : Fin 1)) * x3 (ix2 k q)) + ∑ k : Fin 128, x2 (ix2 p k) * x4 (ix2 k q) := by
  unfold k0_pay1
  rw [addf_apply, product_apply, product_apply]
  congr 1
  · refine Finset.sum_congr rfl fun k _ => ?_
    rw [scaled_apply, shapeCast_self]
  · refine Finset.sum_congr rfl fun k _ => ?_
    rw [truncf_apply, shapeCast_self]

end Cert.KernelIdeal.Block

end
-- ==== Proof.Update.lean ====
/-
  One graph-convolution update as a function of its arrays, and the law that joins its two spellings.

  For node n and output feature o the update is
      out (n, o) = ∑ₖ (agg (n, k) / d n) · W (o, k)  +  ∑ₖ x (n, k) · B (o, k),
  where agg holds each node's summed messages, d n is the node's degree with a zero degree replaced by one, and W, B are
  the two weight matrices (both applied transposed). One program divides agg by d n; the other multiplies agg by the
  reciprocal 1 / d n, computed beforehand, and is handed the weight matrices already transposed.

  On the extended reals the quotient a / d is a · d⁻¹ for d ≠ 0, and then 1 / d is d⁻¹, so a · (1 / d) = a / d for EVERY a,
  finite or not. At d = 0 the two would differ (0 · (1 / 0) = 0 · ⊤ = 0, while 0 / 0 is ⊥), so what is needed is d n ≠ 0:
  and d n is 1 where the degree is 0 and the degree itself elsewhere, never 0 — whatever the degree is. Nothing is asked
  of the summed messages or of the degrees beyond that.
-/
import Idealize.ShloMosaic.PureOps.Ideal
import Idealize.ShloMosaic.PureOps.Ideal.Laws
import Idealize.ShloMosaic.Lib.ValueIdx

noncomputable section

namespace Cert.Update

open Idealize.ShloMosaic Idealize.ShloMosaic.ValueIdx
open scoped BigOperators

/-! ## The law -/

/-- Multiplying by the reciprocal is dividing, off a zero divisor: both are `a · d⁻¹`. -/
theorem mul_recip {a d : EReal} (hd : d ≠ 0) : a * Ideal.div 1 d = Ideal.div a d := by
  rw [Ideal.div, if_neg hd, Ideal.div, if_neg hd, one_mul]

/-- The word of the float one denotes 1. -/
theorem one_word : Ideal.ofBits .f32 0x3F800000#32 = 1 := by
  simp [Ideal.ofBits, Ideal.ieee, -EReal.coe_mul]; norm_num

/-- A degree with zero replaced by one: `where (e == 0) 1 e`, in the programs' spelling. -/
def safe (e : EReal) : EReal :=
  Scalar.select (Ideal.cmp .oeq e (Ideal.ofBits .f32 0x00000000#32)) (Ideal.ofBits .f32 0x3F800000#32) e

/-- It is 1 at 0 and itself elsewhere, -/
theorem safe_eq (e : EReal) : safe e = if e = 0 then 1 else e := by
  have hc : Ideal.cmp .oeq e 0 = BitVec.ofBool (decide (e = 0)) := rfl
  unfold safe Scalar.select
  rw [Ideal.ofBits_zero_f32, one_word, hc]
  by_cases h : e = 0
  · rw [if_pos h, decide_eq_true h, if_pos (show BitVec.ofBool true = 1 by decide)]
  · rw [if_neg h, decide_eq_false h, if_neg (show ¬ BitVec.ofBool false = 1 by decide)]

/-- so never 0. -/
theorem safe_ne_zero (e : EReal) : safe e ≠ 0 := by
  rw [safe_eq]
  by_cases h : e = 0
  · rw [if_pos h]; exact one_ne_zero
  · rw [if_neg h]; exact h

/-! ## The two spellings of the update, at a node and an output feature -/

abbrev Nodes : Shape := ⟨2, ![100000, 128]⟩
abbrev Weights : Shape := ⟨2, ![128, 128]⟩
abbrev Degs : Shape := ⟨1, ![100000]⟩
abbrev DegCol : Shape := ⟨2, ![100000, 1]⟩

/-- Dividing by the degree; the weight matrices as given (read transposed). -/
def divided (agg x : Nodes.Idx → EReal) (d : Degs.Idx → EReal) (W B : Weights.Idx → EReal) (n : Fin 100000) (o : Fin 128) : EReal :=
  (∑ k : Fin 128, Ideal.div (agg (ix2 n k)) (d (ix1 n)) * W (ix2 o k)) + ∑ k : Fin 128, x (ix2 n k) * B (ix2 o k)

/-- Multiplying by a column of reciprocals; the weight matrices already transposed. -/
def scaled (agg x : Nodes.Idx → EReal) (r : DegCol.Idx → EReal) (Wt Bt : Weights.Idx → EReal) (n : Fin 100000) (o : Fin 128) : EReal :=
  (∑ k : Fin 128, agg (ix2 n k) * r (ix2 n (0 : Fin 1)) * Wt (ix2 k o)) + ∑ k : Fin 128, x (ix2 n k) * Bt (ix2 k o)

/-- The two agree when the column holds the reciprocals of divisors that are not 0 and the matrices are each other's
    transposes: term by term under both sums. -/
theorem scaled_eq_divided (agg x : Nodes.Idx → EReal) (d : Degs.Idx → EReal) (r : DegCol.Idx → EReal)
    (W B Wt Bt : Weights.Idx → EReal) (n : Fin 100000) (o : Fin 128)
    (hd : d (ix1 n) ≠ 0) (hr : r (ix2 n (0 : Fin 1)) = Ideal.div 1 (d (ix1 n)))
    (hW : ∀ k : Fin 128, Wt (ix2 k o) = W (ix2 o k)) (hB : ∀ k : Fin 128, Bt (ix2 k o) = B (ix2 o k)) :
    scaled agg x r Wt Bt n o = divided agg x d W B n o := by
  unfold scaled divided
  rw [hr]
  congr 1
  · exact Finset.sum_congr rfl fun k _ => by rw [mul_recip hd, hW k]
  · exact Finset.sum_congr rfl fun k _ => by rw [hB k]

end Cert.Update

end
-- ==== Proof.KernelWhole.lean ====
/-
  The kernel's result array as one function of the arrays the region finds.

  The grid has 20 points; point t handles rows 5000·t … 5000·t + 4999 of the node axis. Its blocks of the summed messages, of
  the reciprocal column and of the node features are those rows of their arrays; the two transposed weight matrices are read
  whole at every point; and what it writes back is those rows of the result. So entry (n, o) of the result depends on row n
  of the summed messages and of the features, on the reciprocal at n, and on column o of the two matrices — it is
  `Update.scaled` of the five arrays at (n, o) — and the 20 blocks tile the node axis, so every entry is written.

  Everything about blocks is stated for ARBITRARY arrays in the five windows' places: which rows a block holds is a fact
  about the windows, not about what the arrays contain. The arrays the region really finds are put in at the end.
-/
import proofs.«181982_j77601469104330_2_alg».proof.Proof.Gen.KernelIdeal.Value
import proofs.«181982_j77601469104330_2_alg».proof.Proof.KernelBlock
import proofs.«181982_j77601469104330_2_alg».proof.Proof.Update
import Idealize.ShloMosaic.PureOps.Ideal

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

theorem origin : (![0, 0] : Fin 2 → Nat) = fun _ => 0 := funext fun a => by fin_cases a <;> rfl

/-- The printed index maps over the grid: point t's block row is t for the three row-blocked inputs and for the output;
    the two matrices stay at their one block. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The node that row p of point t's blocks is. -/
def node (t : Fin cfg0.N) (p : Fin 5000) : Fin 100000 :=
  ⟨t.val * 5000 + p.val, by
    have ht : t.val < 20 := lt_of_lt_of_eq (show t.val < grid0.N from t.isLt) N_0
    have hp := p.isLt
    omega⟩

/-! ## Each window's block of an array, read where the array holds it -/

theorem block0 (f : S100000x128.Idx → EReal) (t : Fin cfg0.N) (p : Fin 5000) (k : Fin 128) :
    ((cfg0.win 0).blk t).view.read (Elt Ideal) f (ix2 p k) = f (ix2 (node t p) k) := by
  show f (((cfg0.win 0).blk t).view.emb (ix2 p k)) = _
  refine congrArg f (funext fun a => Fin.ext ?_)
  obtain ⟨e0, e1, -⟩ := index_facts t
  match a with
  | ⟨0, _⟩ => show win0_0.index t (0 : Fin 2) * 5000 + 1 * p.val = t.val * 5000 + p.val; omega
  | ⟨1, _⟩ => show win0_0.index t (1 : Fin 2) * 128 + 1 * k.val = k.val; omega

theorem block1 (f : S100000x1.Idx → EReal) (t : Fin cfg0.N) (p : Fin 5000) :
    ((cfg0.win 1).blk t).view.read (Elt Ideal) f (ix2 p (0 : Fin 1)) = f (ix2 (node t p) (0 : Fin 1)) := by
  show f (((cfg0.win 1).blk t).view.emb (ix2 p (0 : Fin 1))) = _
  refine congrArg f (funext fun a => Fin.ext ?_)
  obtain ⟨-, -, e0, e1, -⟩ := index_facts t
  match a with
  | ⟨0, _⟩ => show win0_1.index t (0 : Fin 2) * 5000 + 1 * p.val = t.val * 5000 + p.val; omega
  | ⟨1, _⟩ => show win0_1.index t (1 : Fin 2) * 1 + 1 * 0 = 0; omega

theorem block2 (f : S100000x128.Idx → EReal) (t : Fin cfg0.N) (p : Fin 5000) (k : Fin 128) :
    ((cfg0.win 2).blk t).view.read (Elt Ideal) f (ix2 p k) = f (ix2 (node t p) k) := by
  show f (((cfg0.win 2).blk t).view.emb (ix2 p k)) = _
  refine congrArg f (funext fun a => Fin.ext ?_)
  obtain ⟨-, -, -, -, e0, e1, -⟩ := index_facts t
  match a with
  | ⟨0, _⟩ => show win0_2.index t (0 : Fin 2) * 5000 + 1 * p.val = t.val * 5000 + p.val; omega
  | ⟨1, _⟩ => show win0_2.index t (1 : Fin 2) * 128 + 1 * k.val = k.val; omega

theorem block3 (f : S128x128.Idx → EReal) (t : Fin cfg0.N) (k q : Fin 128) :
    ((cfg0.win 3).blk t).view.read (Elt Ideal) f (ix2 k q) = f (ix2 k q) := by
  show f (((cfg0.win 3).blk t).view.emb (ix2 k q)) = _
  refine congrArg f (funext fun a => Fin.ext ?_)
  obtain ⟨-, -, -, -, -, -, e0, e1, -⟩ := index_facts t
  match a with
  | ⟨0, _⟩ => show win0_3.index t (0 : Fin 2) * 128 + 1 * k.val = k.val; omega
  | ⟨1, _⟩ => show win0_3.index t (1 : Fin 2) * 128 + 1 * q.val = q.val; omega

theorem block4 (f : S128x128.Idx → EReal) (t : Fin cfg0.N) (k q : Fin 128) :
    ((cfg0.win 4).blk t).view.read (Elt Ideal) f (ix2 k q) = f (ix2 k q) := by
  show f (((cfg0.win 4).blk t).view.emb (ix2 k q)) = _
  refine congrArg f (funext fun a => Fin.ext ?_)
  obtain ⟨-, -, -, -, -, -, -, -, e0, e1, -⟩ := index_facts t
  match a with
  | ⟨0, _⟩ => show win0_4.index t (0 : Fin 2) * 128 + 1 * k.val = k.val; omega
  | ⟨1, _⟩ => show win0_4.index t (1 : Fin 2) * 128 + 1 * q.val = q.val; omega

theorem block5 (f : S100000x128.Idx → EReal) (t : Fin cfg0.N) (p : Fin 5000) (q : Fin 128) :
    ((cfg0.win 5).blk t).view.read (Elt Ideal) f (ix2 p q) = f (ix2 (node t p) q) := by
  show f (((cfg0.win 5).blk t).view.emb (ix2 p q)) = _
  refine congrArg f (funext fun a => Fin.ext ?_)
  obtain ⟨-, -, -, -, -, -, -, -, -, -, e0, e1⟩ := index_facts t
  match a with
  | ⟨0, _⟩ => show win0_5.index t (0 : Fin 2) * 5000 + 1 * p.val = t.val * 5000 + p.val; omega
  | ⟨1, _⟩ => show win0_5.index t (1 : Fin 2) * 128 + 1 * q.val = q.val; omega

/-! ## What a point writes back -/

/-- The update, multiplying by a reciprocal column, as an array. -/
def scaledArr (A X : S100000x128.Idx → EReal) (R : S100000x1.Idx → EReal) (Wt Bt : S128x128.Idx → EReal) :
    S100000x128.Idx → EReal :=
  fun i => Cert.Update.scaled A X R Wt Bt (i 0) (i 1)

/-- WHAT POINT t WRITES BACK, from the blocks of any five arrays, is its block of their update. -/
theorem written (A X : S100000x128.Idx → EReal) (R : S100000x1.Idx → EReal) (Wt Bt : S128x128.Idx → EReal) (t : Fin cfg0.N) :
    (cfg0.win 5).cut (grid0.coords t) (out0_5 (F := Ideal)
        (((cfg0.win 0).blk t).view.read (Elt Ideal) A) (((cfg0.win 1).blk t).view.read (Elt Ideal) R)
        (((cfg0.win 2).blk t).view.read (Elt Ideal) X) (((cfg0.win 3).blk t).view.read (Elt Ideal) Wt)
        (((cfg0.win 4).blk t).view.read (Elt Ideal) Bt))
      = ((cfg0.win 5).blk t).view.read (Elt Ideal) (scaledArr A X R Wt Bt) := by
  unfold out0_5
  rw [View.canon_unit_zero origin]
  simp only [View.ld_unit_zero (S := S5000x128) origin, View.ld_unit_zero (S := S5000x1) origin,
    View.ld_unit_zero (S := S128x128) origin]
  funext j
  obtain ⟨p, q, rfl⟩ : ∃ (p : Fin 5000) (q : Fin 128), j = ix2 p q := ⟨j 0, j 1, eq_ix2 j⟩
  show k0_pay1 (F := Ideal) (((cfg0.win 0).blk t).view.read (Elt Ideal) A) (((cfg0.win 1).blk t).view.read (Elt Ideal) R)
        (((cfg0.win 2).blk t).view.read (Elt Ideal) X) (((cfg0.win 3).blk t).view.read (Elt Ideal) Wt)
        (((cfg0.win 4).blk t).view.read (Elt Ideal) Bt) (ix2 p q)
    = ((cfg0.win 5).blk t).view.read (Elt Ideal) (scaledArr A X R Wt Bt) (ix2 p q)
  rw [block5, Block.pay_apply]
  show _ = Cert.Update.scaled A X R Wt Bt (node t p) q
  unfold Cert.Update.scaled
  refine congrArg₂ (fun a b : EReal => a + b) (Finset.sum_congr rfl fun k _ => ?_) (Finset.sum_congr rfl fun k _ => ?_)
  · rw [block0, block1, block3]
  · rw [block2, block4]

/-! ## The whole array -/

/-- An index of the array is in point t's block iff each coordinate is in the block's range on its axis. -/
theorem mem_block (t : Fin cfg0.N) (i : S100000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v31).slice (win0_5.rect t)).set ↔ _
  rw [View.set_slice_whole, Rect.mem_set_unit]
  exact Iff.rfl

/-- The 20 blocks tile the array: row n is in the block of point n / 5000. -/
theorem covered (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have hlt : (i 0).val / 5000 < grid0.N := lt_of_lt_of_eq (show (i 0).val / 5000 < 20 by omega) N_0.symm
  obtain ⟨t, ht⟩ : ∃ t : Fin cfg0.N, t.val = (i 0).val / 5000 := ⟨⟨(i 0).val / 5000, hlt⟩, rfl⟩
  obtain ⟨-, -, -, -, -, -, -, -, -, -, e0, e1⟩ := index_facts t
  refine ⟨t, flush0_5 t, ?_⟩
  rw [mem_block]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

variable (m : (ℓ : Loc nD τ sig) → Buf (Elt Ideal) ℓ) (ρ : Dev nD → PrngReg)

/-- The result array: the update of the five arrays as the region finds them. -/
def result (c : Dev nD) : S100000x128.Idx → EReal :=
  scaledArr (V m c main_v15) (V m c main_arg0) (V m c main_v26) (V m c main_v28) (V m c main_v30)

/-- The result array at a node and an output feature. -/
theorem result_apply (c : Dev nD) (n : Fin 100000) (o : Fin 128) :
    result m c (ix2 n o)
      = Cert.Update.scaled (V m c main_v15) (V m c main_arg0) (V m c main_v26) (V m c main_v28) (V m c main_v30) n o := rfl

/-- What point t writes back is its block of the result array. -/
theorem flushed_eq (c : Dev nD) (t : Fin cfg0.N) :
    (dats m 0 c).flushed 5 t = ((cfg0.win 5).blk t).view.read (Elt Ideal) (result m c) :=
  (Value.flushed5 m c t).trans
    (written (V m c main_v15) (V m c main_arg0) (V m c main_v26) (V m c main_v28) (V m c main_v30) t)

/-- THE ARRAY after the run is the result array. -/
theorem final (c : Dev nD) : (dats m 0 c).arrAt 5 cfg0.N = result m c :=
  (dats m 0 c).arrAt_eq_of_cover 5 (result m c) (fun t _ => flushed_eq m c t) covered

/-- The kernel's run: the result buffer ends at the result array, the arguments unchanged. -/
theorem run : θ_run defs (onTc (τ := τ) (main (F := Ideal))) ⟨m, fun _ => 0, ρ⟩ fun r => ∀ c : Dev nD,
      r.2.mem ((c : Thread nD τ).loc main_v31) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Whole

end
-- ==== Proof.KernelHost.lean ====
/-
  What the host operations before the region leave in the arrays the kernel's windows read.

  Before the region the program computes, from the node features x, the edge list e (row 0 the source nodes, row 1 the
  destination nodes, a negative destination wrapped by adding the node count) and the two weight matrices:
    * `agg x e`   — for each source node, the sum of the features gathered at its edges' destinations (a gather, then a
                      scatter-add into zeros); the round trip through the narrower float format is the identity on exact values;
    * `deg e`     — for each node, the number of edges leaving it (a scatter-add of ones into zeros);
    * `degSafe e` — the same with a zero count replaced by one;
    * `recipCol e` — the reciprocals 1 / degSafe, laid out as a column;
    * the transposes of the two weight matrices.
  The gather and the two scatter-adds are carried as named functions and never opened: the other program applies the very
  same operations to the same arguments.
-/
import proofs.«181982_j77601469104330_2_alg».proof.Proof.Gen.KernelIdeal.Frame
import Idealize.ShloMosaic.Lib.StableHlo.Run
import Idealize.ShloMosaic.PureOps.Ideal

noncomputable section

namespace Cert.KernelIdeal.HostValue

open Cert.KernelIdeal Cert.KernelIdeal.Gen Idealize.ShloMosaic Idealize.ShloMosaic.TcCoe Idealize.SL.Sem Idealize.ShloMosaic.StableHlo

abbrev Edges : Type := (⟨S2x625000, .i32⟩ : BufTy).Contents (Elt Ideal)
abbrev Feats : Type := (⟨S100000x128, .f32⟩ : BufTy).Contents (Elt Ideal)
abbrev Wts : Type := (⟨S128x128, .f32⟩ : BufTy).Contents (Elt Ideal)

/-- The edges' source nodes, as a column of scatter positions. -/
def srcCol (e : Edges) : (⟨S625000x1, .i32⟩ : BufTy).Contents (Elt Ideal) :=
  broadcastInDim S625000x1 ![0] bcast_S625000_S625000x1_0
    (shapeCast _ (extractStridedSlice S1x625000 ![0, 0] e slices_S2x625000_S1x625000_0_0) shapeCasts_S1x625000_S625000)

/-- The edges' destination nodes, a negative one wrapped by the node count, as a column of gather positions. -/
def dstCol (e : Edges) : (⟨S625000x1, .i32⟩ : BufTy).Contents (Elt Ideal) :=
  broadcastInDim S625000x1 ![0] bcast_S625000_S625000x1_0
    (select (cmpi .slt (shapeCast _ (extractStridedSlice S1x625000 ![1, 0] e slices_S2x625000_S1x625000_1_0) shapeCasts_S1x625000_S625000)
        (broadcastInDim S625000 ![] bcast_S_S625000 (constantI S_ 32 0#32)))
      (addi (shapeCast _ (extractStridedSlice S1x625000 ![1, 0] e slices_S2x625000_S1x625000_1_0) shapeCasts_S1x625000_S625000)
        (broadcastInDim S625000 ![] bcast_S_S625000 (constantI S_ 32 100000#32)))
      (shapeCast _ (extractStridedSlice S1x625000 ![1, 0] e slices_S2x625000_S1x625000_1_0) shapeCasts_S1x625000_S625000))

/-- Each source node's summed messages. -/
def agg (x : Feats) (e : Edges) : Feats :=
  Host.scatterAdd (F := Ideal) scatter_S100000x128_S625000x1_S625000x128_1_0_0_1
    (broadcastInDim S100000x128 ![] bcast_S_S100000x128 (constant (F := Ideal) S_ .f32 0x00000000#32)) (srcCol e)
    (Host.gather gather_S100000x128_S625000x1_S625000x128_1_0_n_n_0_1_1128 x (dstCol e))

/-- Each node's number of leaving edges. -/
def deg (e : Edges) : (⟨S100000, .f32⟩ : BufTy).Contents (Elt Ideal) :=
  Host.scatterAdd (F := Ideal) scatter_S100000_S625000x1_S625000_n_0_0_1
    (broadcastInDim S100000 ![] bcast_S_S100000 (constant (F := Ideal) S_ .f32 0x00000000#32)) (srcCol e)
    (broadcastInDim S625000 ![] bcast_S_S625000 (constant (F := Ideal) S_ .f32 0x3F800000#32))

/-- The same, a zero count replaced by one. -/
def degSafe (e : Edges) : (⟨S100000, .f32⟩ : BufTy).Contents (Elt Ideal) :=
  select (cmpf (F := Ideal) .oeq (deg e) (broadcastInDim S100000 ![] bcast_S_S100000 (constant (F := Ideal) S_ .f32 0x00000000#32)))
    (broadcastInDim S100000 ![] bcast_S_S100000 (constant (F := Ideal) S_ .f32 0x3F800000#32)) (deg e)

/-- The reciprocals of those, as a column. -/
def recipCol (e : Edges) : (⟨S100000x1, .f32⟩ : BufTy).Contents (Elt Ideal) :=
  shapeCast _ (Host.divf (F := Ideal) (broadcastInDim S100000 ![] bcast_S_S100000 (constant (F := Ideal) S_ .f32 0x3F800000#32)) (degSafe e))
    shapeCasts_S100000_S100000x1

variable (m : (ℓ : Loc nD τ sig) → Buf (Elt Ideal) ℓ)

set_option maxHeartbeats 2000000 in
/-- Window 0's array: the summed messages. -/
theorem V_agg (c : Dev nD) :
    (V m c main_v15 : S100000x128.Idx → EReal) = agg (m ((c : Thread nD τ).loc main_arg0)) (m ((c : Thread nD τ).loc main_arg1)) := by
  dsimp only [V]
  simp only [hostOps0, hostOps0_1, hostOps0_2, List.flatten_cons, List.flatten_nil, List.append_nil, List.cons_append,
    List.nil_append]
  after_results_simp <;> rfl

set_option maxHeartbeats 2000000 in
/-- Window 1's array: the column of reciprocal degrees. (The degree's zero-replacement is an outlined call: its operands
    pass through the call's typed references, transports along equations that are reflexivity.) -/
theorem V_recip (c : Dev nD) :
    (V m c main_v26 : S100000x1.Idx → EReal) = recipCol (m ((c : Thread nD τ).loc main_arg1)) := by
  dsimp only [V]
  simp only [hostOps0, hostOps0_1, hostOps0_2, List.flatten_cons, List.flatten_nil, List.append_nil, List.cons_append,
    List.nil_append]
  after_results_simp
  simp only [TRef.toBuf, TRef.ofBuf, cast_eq]
  rfl

/-- Window 3's array: the first weight matrix, transposed. -/
theorem V_wt (c : Dev nD) :
    (V m c main_v28 : S128x128.Idx → EReal)
      = transpose S128x128 [1, 0] (m ((c : Thread nD τ).loc main_arg2)) transposes_S128x128_S128x128_1_0 := by
  dsimp only [V]
  simp only [hostOps0, hostOps0_1, hostOps0_2, List.flatten_cons, List.flatten_nil, List.append_nil, List.cons_append,
    List.nil_append]
  after_results_simp <;> rfl

/-- Window 4's array: the second weight matrix, transposed. -/
theorem V_bt (c : Dev nD) :
    (V m c main_v30 : S128x128.Idx → EReal)
      = transpose S128x128 [1, 0] (m ((c : Thread nD τ).loc main_arg3)) transposes_S128x128_S128x128_1_0 := by
  dsimp only [V]
  simp only [hostOps0, hostOps0_1, hostOps0_2, List.flatten_cons, List.flatten_nil, List.append_nil, List.cons_append,
    List.nil_append]
  after_results_simp <;> rfl

end Cert.KernelIdeal.HostValue

end
-- ==== Proof.RefValue.lean ====
/-
  The reference's result at a node and an output feature.

  The reference divides each node's summed messages by the node's degree (a zero degree replaced by one), multiplies by
  the first weight matrix transposed, and adds the node features times the second weight matrix transposed. Read one
  operation at a time at the index (n, o): the two products are sums over the contracted axis k, the transposes read
  W (o, k) and B (o, k), the divisor — a column of degrees broadcast along the feature axis — is the safe degree at n
  whatever k is. That is `Update.divided` of the reference's own summed messages and degrees.
-/
import proofs.«181982_j77601469104330_2_alg».proof.Proof.RefReadP
import proofs.«181982_j77601469104330_2_alg».proof.Proof.Update

noncomputable section

namespace Cert.ReferenceIdeal.RefValue

open Cert.ReferenceIdeal Cert.ReferenceIdeal.ReadP Idealize.ShloMosaic Idealize.ShloMosaic.ValueIdx
open scoped BigOperators

abbrev Edges : Type := (⟨S2x625000, .i32⟩ : BufTy).Contents (Elt Ideal)
abbrev Feats : Type := (⟨S100000x128, .f32⟩ : BufTy).Contents (Elt Ideal)
abbrev Wts : Type := (⟨S128x128, .f32⟩ : BufTy).Contents (Elt Ideal)

/-! ## The positions the operations read, in coordinates -/

theorem left_pos (n : Fin 100000) (o k : Fin 128) : lidx_main_v26 (ix2 n o) k = ix2 n k :=
  funext fun a => Fin.ext (by match a with | ⟨0, _⟩ => rfl | ⟨1, _⟩ => rfl)
theorem right_pos (n : Fin 100000) (o k : Fin 128) : ridx_main_v26 (ix2 n o) k = ix2 k o :=
  funext fun a => Fin.ext (by match a with | ⟨0, _⟩ => rfl | ⟨1, _⟩ => rfl)
theorem left_pos' (n : Fin 100000) (o k : Fin 128) : lidx_main_v28 (ix2 n o) k = ix2 n k :=
  funext fun a => Fin.ext (by match a with | ⟨0, _⟩ => rfl | ⟨1, _⟩ => rfl)
theorem right_pos' (n : Fin 100000) (o k : Fin 128) : ridx_main_v28 (ix2 n o) k = ix2 k o :=
  funext fun a => Fin.ext (by match a with | ⟨0, _⟩ => rfl | ⟨1, _⟩ => rfl)
theorem transposed_pos (k o : Fin 128) : idx_main_v25 (ix2 k o) = ix2 o k :=
  funext fun a => Fin.ext (by match a with | ⟨0, _⟩ => rfl | ⟨1, _⟩ => rfl)
theorem transposed_pos' (k o : Fin 128) : idx_main_v27 (ix2 k o) = ix2 o k :=
  funext fun a => Fin.ext (by match a with | ⟨0, _⟩ => rfl | ⟨1, _⟩ => rfl)
theorem divisor_pos (n : Fin 100000) (k : Fin 128) : idx_main_v22 (idx_main_v23 (ix2 n k)) = ix1 n :=
  funext fun a => Fin.ext (by match a with | ⟨0, _⟩ => rfl)

/-- The divisor at a node: the degree with zero replaced by one. -/
theorem degSafe_apply (e : Edges) (j : S100000.Idx) :
    val_main_v21 (F := Ideal) e j = Cert.Update.safe (val_main_v17 (F := Ideal) e j) := by
  rw [val_main_v21_apply, val_main_v19_apply, val_main_v20_apply, val_main_v18_apply, val_main_cst_4_apply,
    val_main_cst_3_apply]
  rfl

/-- The reference's result at (n, o). -/
theorem result_apply (x : Feats) (e : Edges) (W B : Wts) (n : Fin 100000) (o : Fin 128) :
    val_main_v29 (F := Ideal) x e W B (ix2 n o)
      = Cert.Update.divided (val_main_v13 (F := Ideal) x e) x (fun j => Cert.Update.safe (val_main_v17 (F := Ideal) e j)) W B n o := by
  rw [val_main_v29_apply, val_main_v26_apply, val_main_v28_apply]
  unfold Cert.Update.divided
  refine congrArg₂ (fun a b : EReal => a + b) (Finset.sum_congr rfl fun k _ => ?_) (Finset.sum_congr rfl fun k _ => ?_)
  · rw [left_pos, right_pos, val_main_v24_apply, val_main_v23_apply, val_main_v22_apply, divisor_pos, degSafe_apply,
      val_main_v25_apply, transposed_pos]
    rfl
  · rw [left_pos', right_pos', val_main_v27_apply, transposed_pos']

end Cert.ReferenceIdeal.RefValue

end
-- ==== Proof.Bridge.lean ====
/-
  The two programs compute one function of the arguments.

  The kernel's result array is `Update.scaled` of five arrays the host operations before the region leave: each node's
  summed messages, the column of reciprocals of the safe degrees, the node features, and the two weight matrices
  transposed. The reference's result is `Update.divided` of its own summed messages and safe degrees, the features and
  the weight matrices as given. The summed messages and the degrees are produced, in both programs, by the same gather and
  the same two scatter-adds of the same arguments — they are the same arrays, and are never opened. What remains is the
  law of `Update.scaled_eq_divided`: the reciprocal column at a node is 1 / (the safe degree there), the safe degree is
  never 0, and entry (k, o) of a transposed matrix is entry (o, k) of the matrix.
-/
import proofs.«181982_j77601469104330_2_alg».proof.Proof.KernelWhole
import proofs.«181982_j77601469104330_2_alg».proof.Proof.KernelHost
import proofs.«181982_j77601469104330_2_alg».proof.Proof.RefValue
import proofs.«181982_j77601469104330_2_alg».proof.Proof.LibColBroadcast
import Idealize.ShloMosaic.Lib.IdealHost

noncomputable section

namespace Cert.Bridge

open Idealize.ShloMosaic Idealize.ShloMosaic.TcCoe Idealize.SL.Sem Idealize.ShloMosaic.ValueIdx
open Cert.KernelIdeal Cert.KernelIdeal.Gen Cert.KernelIdeal.HostValue

/-! ## The shared stages are the same arrays in both programs -/

/-- Each node's summed messages: the same gather and scatter-add of the same arguments. -/
theorem agg_eq (x : Feats) (e : Edges) : agg x e = Cert.ReferenceIdeal.ReadP.val_main_v13 (F := Ideal) x e := rfl

/-- Each node's degree: the same scatter-add of ones. -/
theorem deg_eq (e : Edges) : deg e = Cert.ReferenceIdeal.ReadP.val_main_v17 (F := Ideal) e := rfl

/-! ## The kernel's remaining inputs, read at an index -/

/-- The safe degree at a node. -/
theorem degSafe_apply (e : Edges) (n : Fin 100000) : degSafe e (ix1 n) = Cert.Update.safe (deg e (ix1 n)) := by
  unfold degSafe
  rw [select_apply, cmpf_apply, broadcastInDim_scalar_apply, broadcastInDim_scalar_apply, constant_apply, constant_apply]
  rfl

/-- The reciprocal column at a node: one over the safe degree. -/
theorem recip_apply (e : Edges) (n : Fin 100000) :
    recipCol e (ix2 n (0 : Fin 1)) = Ideal.div 1 (Cert.Update.safe (deg e (ix1 n))) := by
  unfold recipCol
  refine (Cert.Lib.Cols.col_apply _ shapeCasts_S100000_S100000x1 n).trans ?_
  rw [hostDivf_apply, degSafe_apply, broadcastInDim_scalar_apply, constant_apply, Cert.Update.one_word]

/-- A transposed weight matrix at (k, o) is the matrix at (o, k). -/
theorem transposed_apply (W : Wts) (k o : Fin 128) :
    transpose S128x128 [1, 0] W transposes_S128x128_S128x128_1_0 (ix2 k o) = W (ix2 o k) :=
  transpose_apply [1, 0] W transposes_S128x128_S128x128_1_0 (ix2 k o) (ix2 o k) fun b => match b with
    | ⟨0, _⟩ => rfl
    | ⟨1, _⟩ => rfl

/-! ## The two results -/

/-- The update depends on its five arrays only. -/
theorem scaled_congr {A A' X X' : Cert.Update.Nodes.Idx → EReal} {R R' : Cert.Update.DegCol.Idx → EReal}
    {Wt Wt' Bt Bt' : Cert.Update.Weights.Idx → EReal} (hA : A = A') (hX : X = X') (hR : R = R') (hW : Wt = Wt')
    (hB : Bt = Bt') (n : Fin 100000) (o : Fin 128) :
    Cert.Update.scaled A X R Wt Bt n o = Cert.Update.scaled A' X' R' Wt' Bt' n o := by
  subst hA hX hR hW hB; rfl

variable (m : (ℓ : Loc nD τ sig) → Buf (Elt Ideal) ℓ)

/-- The kernel's result array is the reference's result term of the same arguments. -/
theorem result_eq (c : Dev nD) :
    Cert.KernelIdeal.Whole.result m c
      = Cert.ReferenceIdeal.ReadP.val_main_v29 (F := Ideal) (m ((c : Thread nD τ).loc main_arg0))
          (m ((c : Thread nD τ).loc main_arg1)) (m ((c : Thread nD τ).loc main_arg2)) (m ((c : Thread nD τ).loc main_arg3)) := by
  funext i
  obtain ⟨n, o, rfl⟩ : ∃ (n : Fin 100000) (o : Fin 128), i = ix2 n o := ⟨i 0, i 1, eq_ix2 i⟩
  rw [Cert.ReferenceIdeal.RefValue.result_apply, ← agg_eq, ← deg_eq]
  refine (Cert.KernelIdeal.Whole.result_apply m c n o).trans ?_
  refine (scaled_congr (V_agg m c) (V_main_arg0 m c) (V_recip m c) (V_wt m c) (V_bt m c) n o).trans ?_
  exact Cert.Update.scaled_eq_divided _ _ (fun j => Cert.Update.safe (deg (m ((c : Thread nD τ).loc main_arg1)) j)) _ _ _ _ _ n o
    (Cert.Update.safe_ne_zero _) (recip_apply _ n) (fun k => transposed_apply _ k o) (fun k => transposed_apply _ k o)

end Cert.Bridge

end
-- ==== Proof.lean ====
/-
  One graph-convolution update of 100000 nodes with 128 features over 625000 edges: the kernel against its reference.

  Both programs gather each edge's destination features, sum them into the edge's source node, count each node's leaving
  edges, and replace a zero count by one. The reference then divides each node's summed messages by that count, applies
  the first weight matrix (transposed) to the quotient and the second (transposed) to the node's own features, and adds.
  The kernel is handed the reciprocals of the counts as a column and the two matrices already transposed; in blocks of
  5000 nodes it multiplies the summed messages by the reciprocal, forms the two matrix products from zero accumulators, and
  adds. On exact values the narrower float format on the way into the products is the identity, a product accumulated
  from zero is the plain sum over the contracted axis, and a · (1 / d) = a / d for every extended real a as soon as d ≠ 0 —
  which holds of a count with zero replaced by one, whatever the count. So the two results are equal entry by entry
  (Proof/Update.lean has the law, Proof/Bridge.lean the comparison); no finiteness is needed, and the precondition is not used.

  The three frames are the programs' generated runs (the reference's with its result dropped); the idealization rewrote
  nothing, so the kernel's idealized text is the kernel's own.
-/
import proofs.«181982_j77601469104330_2_alg».proof.Defs
import proofs.«181982_j77601469104330_2_alg».proof.Proof.Gen.Kernel
import proofs.«181982_j77601469104330_2_alg».proof.Proof.Gen.Kernel.Skeleton
import proofs.«181982_j77601469104330_2_alg».proof.Proof.Gen.Kernel.Launch
import proofs.«181982_j77601469104330_2_alg».proof.Proof.Gen.Kernel.Points
import proofs.«181982_j77601469104330_2_alg».proof.Proof.Gen.Kernel.Frame
import proofs.«181982_j77601469104330_2_alg».proof.Proof.Gen.KernelIdeal
import proofs.«181982_j77601469104330_2_alg».proof.Proof.Gen.KernelIdeal.Skeleton
import proofs.«181982_j77601469104330_2_alg».proof.Proof.Gen.KernelIdeal.Launch
import proofs.«181982_j77601469104330_2_alg».proof.Proof.Gen.KernelIdeal.Points
import proofs.«181982_j77601469104330_2_alg».proof.Proof.Gen.KernelIdeal.Frame
import proofs.«181982_j77601469104330_2_alg».proof.Proof.Gen.ReferenceIdeal
import proofs.«181982_j77601469104330_2_alg».proof.Proof.Gen.Pre_finite_inputs
import proofs.«181982_j77601469104330_2_alg».proof.Proof.Gen.KernelIdeal.Value
import proofs.«181982_j77601469104330_2_alg».proof.Proof.RefRunP
import proofs.«181982_j77601469104330_2_alg».proof.Proof.RefReadP
import proofs.«181982_j77601469104330_2_alg».proof.Proof.Bridge
import Idealize.ShloMosaic.Adequacy
import Idealize.ShloMosaic.Init

noncomputable section

namespace Cert.Proof

open Idealize.ShloMosaic Idealize.ShloMosaic.TcCoe Idealize.SL.Sem

/-- The kernel as printed runs to the end, nothing faulting, and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with what it says of the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation: there is nothing to preserve. -/
theorem preserves : Cert.preserves_Kernel_KernelIdeal := trivial

/-- From memories that agree on the arguments the kernel's result array ends at its result function and the
    reference's at its result term, and these are one function of the arguments (`Bridge.result_eq`). -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v29_eq, (hagree c).1, (hagree c).2.1, (hagree c).2.2.1, (hagree c).2.2.2]
  exact (Cert.Bridge.result_eq m c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
